-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S256x256 : Shape := ⟨2, ![256, 256]⟩
abbrev S256 : Shape := ⟨1, ![256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x256x128x128 .f32) (main_arg1 : FVec F S256x256 .f32) (main_arg2 : FVec F S256 .f32) (main_arg3 : FVec F S256x256 .f32) (main_arg4 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S16x256x128x128 : Shape := ⟨4, ![16, 256, 128, 128]⟩
abbrev S256x256 : Shape := ⟨2, ![256, 256]⟩
abbrev S256 : Shape := ⟨1, ![256]⟩
abbrev S16x256x1x1 : Shape := ⟨4, ![16, 256, 1, 1]⟩
abbrev S16x256 : Shape := ⟨2, ![16, 256]⟩
abbrev S1x256 : Shape := ⟨2, ![1, 256]⟩
abbrev S_ : Shape := ⟨0, ![]⟩
abbrev S1x256x128x128 : Shape := ⟨4, ![1, 256, 128, 128]⟩
abbrev S1x256x1x1 : Shape := ⟨4, ![1, 256, 1, 1]⟩
abbrev S1x256x128 : Shape := ⟨3, ![1, 256, 128]⟩
abbrev S1x128x128x128 : Shape := ⟨4, ![1, 128, 128, 128]⟩
abbrev S1x128x1x1 : Shape := ⟨4, ![1, 128, 1, 1]⟩

abbrev nBuf : Space → Nat
  | .hbm => 36
  | .vmem => 10
  | .smem => 0
  | _ => 0

abbrev bufTy : (tb : Table) → Fin (tcTables nBuf tb) → BufTy
  | .hbm, ⟨0, _⟩ => ⟨S16x256x128x128, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S16x256x1x1, .f32⟩
  | .hbm, ⟨6, _⟩ => ⟨S16x256, .f32⟩
  | .hbm, ⟨7, _⟩ => ⟨S256x256, .f32⟩
  | .hbm, ⟨8, _⟩ => ⟨S16x256, .f32⟩
  | .hbm, ⟨9, _⟩ => ⟨S1x256, .f32⟩
  | .hbm, ⟨10, _⟩ => ⟨S16x256, .f32⟩
  | .hbm, ⟨11, _⟩ => ⟨S16x256, .f32⟩
  | .hbm, ⟨12, _⟩ => ⟨S16x256, .f32⟩
  | .hbm, ⟨13, _⟩ => ⟨S16x256, .f32⟩
  | .hbm, ⟨14, _⟩ => ⟨S_, .f32⟩
  | .hbm, ⟨15, _⟩ => ⟨S16x256, .f32⟩
  | .hbm, ⟨16, _⟩ => ⟨S16x256, .f32⟩
  | .hbm, ⟨17, _⟩ => ⟨S_, .f32⟩
  | .hbm, ⟨18, _⟩ => ⟨S16x256, .f32⟩
  | .hbm, ⟨19, _⟩ => ⟨S16x256, .f32⟩
  | .hbm, ⟨20, _⟩ => ⟨S16x256, .f32⟩
  | .hbm, ⟨21, _⟩ => ⟨S256x256, .f32⟩
  | .hbm, ⟨22, _⟩ => ⟨S16x256, .f32⟩
  | .hbm, ⟨23, _⟩ => ⟨S1x256, .f32⟩
  | .hbm, ⟨24, _⟩ => ⟨S16x256, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S_, .f32⟩
  | .hbm, ⟨29, _⟩ => ⟨S16x256, .f32⟩
  | .hbm, ⟨30, _⟩ => ⟨S16x256, .f32⟩
  | .hbm, ⟨31, _⟩ => ⟨S_, .f32⟩
  | .hbm, ⟨32, _⟩ => ⟨S16x256, .f32⟩
  | .hbm, ⟨33, _⟩ => ⟨S16x256, .f32⟩
  | .hbm, ⟨34, _⟩ => ⟨S16x256x1x1, .f32⟩
  | .hbm, ⟨35, _⟩ => ⟨S16x256x128x128, .f32⟩
  | .local _ .vmem, ⟨0, _⟩ => ⟨S1x256x128x128, .f32⟩
  | .local _ .vmem, ⟨1, _⟩ => ⟨S1x256x128x128, .f32⟩
  | .local _ .vmem, ⟨2, _⟩ => ⟨S1x256x1x1, .f32⟩
  | .local _ .vmem, ⟨3, _⟩ => ⟨S1x256x1x1, .f32⟩
  | .local _ .vmem, ⟨4, _⟩ => ⟨S1x128x128x128, .f32⟩
  | .local _ .vmem, ⟨5, _⟩ => ⟨S1x128x128x128, .f32⟩
  | .local _ .vmem, ⟨6, _⟩ => ⟨S1x128x1x1, .f32⟩
  | .local _ .vmem, ⟨7, _⟩ => ⟨S1x128x1x1, .f32⟩
  | .local _ .vmem, ⟨8, _⟩ => ⟨S1x128x128x128, .f32⟩
  | .local _ .vmem, ⟨9, _⟩ => ⟨S1x128x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_cst : Ref sig .tc := ⟨.hbm, 14, rfl⟩
abbrev main_call0_v9 : Ref sig .tc := ⟨.hbm, 15, rfl⟩
abbrev main_call0_v10 : Ref sig .tc := ⟨.hbm, 16, rfl⟩
abbrev main_call0_cst_0 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_call0_v20 : Ref sig .tc := ⟨.hbm, 27, rfl⟩
abbrev main_call0_cst_1 : Ref sig .tc := ⟨.hbm, 28, rfl⟩
abbrev main_call0_v21 : Ref sig .tc := ⟨.hbm, 29, rfl⟩
abbrev main_call0_v22 : Ref sig .tc := ⟨.hbm, 30, rfl⟩
abbrev main_call0_cst_2 : Ref sig .tc := ⟨.hbm, 31, rfl⟩
abbrev main_call0_v23 : Ref sig .tc := ⟨.hbm, 32, rfl⟩
abbrev main_call0_v24 : Ref sig .tc := ⟨.hbm, 33, rfl⟩
abbrev main_call0_v25 : Ref sig .tc := ⟨.hbm, 34, rfl⟩
abbrev main_v0 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16x256x1x1_S16x256 : S16x256x1x1.ShapeCasts S16x256
  transposes_S256x256_S256x256_1_0 : S256x256.Transposes [1, 0] S256x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  bcast_S16x256_S16x256x1x1_0_1 : S16x256.BroadcastsInDim S16x256x1x1 (![0, 1] : Fin 2 → Fin S16x256x1x1.rank)
  inb_S1x256x128x128_S1x256x128x128_0_0_0_0 : ∀ a, (![0, 0, 0, 0] : Fin 4 → Nat) a + S1x256x128x128.size a ≤ S1x256x128x128.size a
  h_S1x256x128x128 : 0 < S1x256x128x128.numel
  reduces_S1x256x128x128_S1x256x128 : S1x256x128x128.Reduces [3] S1x256x128
  reduces_S1x256x128_S1x256 : S1x256x128.Reduces [2] S1x256
  shapeCasts_S1x256_S1x256x1x1 : S1x256.ShapeCasts S1x256x1x1
  inb_S1x256x1x1_S1x256x1x1_0_0_0_0 : ∀ a, (![0, 0, 0, 0] : Fin 4 → Nat) a + S1x256x1x1.size a ≤ S1x256x1x1.size a
  h_S1x256x1x1 : 0 < S1x256x1x1.numel
  inb_S1x128x1x1_S1x128x1x1_0_0_0_0 : ∀ a, (![0, 0, 0, 0] : Fin 4 → Nat) a + S1x128x1x1.size a ≤ S1x128x1x1.size a
  h_S1x128x1x1 : 0 < S1x128x1x1.numel
  shapeCasts_S1x128x1x1_S1x128x1x1 : S1x128x1x1.ShapeCasts S1x128x1x1
  broadcasts_S1x128x1x1_S1x128x128x128 : S1x128x1x1.Broadcasts S1x128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  dot_S16x256_S256x256_S16x256_1_0_0_1_n_n_wf : DotDims.WF S16x256 S256x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128x128.size a ≤ S16x256x128x128.size a
  hwx0_0 : ∀ i : grid0.Coords, EltTy.bits .f32 = 32 ∨ (Rect.block (s := S16x256x128x128) S1x256x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1x1.size a ≤ S16x256x1x1.size a
  hwx0_1 : ∀ i : grid0.Coords, EltTy.bits .f32 = 32 ∨ (Rect.block (s := S16x256x1x1) S1x256x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128x128.size a ≤ S16x256x128x128.size a
  hwx1_0 : ∀ i : grid1.Coords, EltTy.bits .f32 = 32 ∨ (Rect.block (s := S16x256x128x128) S1x128x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x1x1.size a ≤ S16x256x1x1.size a
  hwx1_1 : ∀ i : grid1.Coords, EltTy.bits .f32 = 32 ∨ (Rect.block (s := S16x256x1x1) S1x128x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128x128.size a ≤ S16x256x128x128.size a
  hwx1_2 : ∀ i : grid1.Coords, EltTy.bits .f32 = 32 ∨ (Rect.block (s := S16x256x128x128) S1x128x128x128.size (cc1_transform_2 i) (hinb1_2 i)).WholeWords (EltTy.packing .f32)

variable [Facts₀]

def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf

abbrev win0_0 : Pipeline.Window sig grid0 :=
  Pipeline.Window.ofSpec (Memref.whole main_arg0) S1x256x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x256x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x128x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v25) S1x128x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S256x256 : Shape := ⟨2, ![256, 256]⟩
abbrev S256 : Shape := ⟨1, ![256]⟩
abbrev S_ : Shape := ⟨0, ![]⟩
abbrev S16x256 : Shape := ⟨2, ![16, 256]⟩
abbrev S1x256 : Shape := ⟨2, ![1, 256]⟩
abbrev S16x256x1x1 : Shape := ⟨4, ![16, 256, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S_, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S256x256, .f32⟩
  | .hbm, ⟨11, _⟩ => ⟨S16x256, .f32⟩
  | .hbm, ⟨12, _⟩ => ⟨S1x256, .f32⟩
  | .hbm, ⟨13, _⟩ => ⟨S16x256, .f32⟩
  | .hbm, ⟨14, _⟩ => ⟨S16x256, .f32⟩
  | .hbm, ⟨15, _⟩ => ⟨S16x256, .f32⟩
  | .hbm, ⟨16, _⟩ => ⟨S16x256, .f32⟩
  | .hbm, ⟨17, _⟩ => ⟨S_, .f32⟩
  | .hbm, ⟨18, _⟩ => ⟨S16x256, .f32⟩
  | .hbm, ⟨19, _⟩ => ⟨S16x256, .f32⟩
  | .hbm, ⟨20, _⟩ => ⟨S_, .f32⟩
  | .hbm, ⟨21, _⟩ => ⟨S16x256, .f32⟩
  | .hbm, ⟨22, _⟩ => ⟨S16x256, .f32⟩
  | .hbm, ⟨23, _⟩ => ⟨S16x256, .f32⟩
  | .hbm, ⟨24, _⟩ => ⟨S256x256, .f32⟩
  | .hbm, ⟨25, _⟩ => ⟨S16x256, .f32⟩
  | .hbm, ⟨26, _⟩ => ⟨S1x256, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S16x256, .f32⟩
  | .hbm, ⟨31, _⟩ => ⟨S_, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | .hbm, ⟨37, _⟩ => ⟨S16x256x1x1, .f32⟩
  | .hbm, ⟨38, _⟩ => ⟨S16x256x128x128, .f32⟩
  | .hbm, ⟨39, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  transposes_S256x256_S256x256_1_0 : S256x256.Transposes [1, 0] S256x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  dot_S16x256_S256x256_S16x256_1_0_0_1_n_n_wf : DotDims.WF S16x256 S256x256 S16x256 [1] [0] [0] [1] [] []

variable [Facts₀]

def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf

class Facts : Prop extends Facts₀ where

variable [Facts]
-- ==== Proof.KernelRun.lean ====
/-
  The idealized kernel's run, with its result kept.

  The program is three segments: the pooling region, a stretch of host operations (the two-layer gate), and the
  scaling region. The launch theorem for such a chain ends with every unscoped buffer of a core at the contents the
  last boundary names (`Gen.W3`): the second region's arrays at what its write-backs leave, every other buffer as the
  host stretch left it. The frame keeps only the five argument arrays of that; here the result buffer is kept as well,
  so the post says: the result is `W3` read at the result buffer, and the arguments are as launched.
-/
import proofs.«115878_j44547400794189_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the result buffer ends at the last
    boundary's contents there, and the five argument arrays end as launched. -/
theorem run : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.RunValue

end
-- ==== Proof.PoolValue.lean ====
/-
  The pooling region, read as one function of the array it is entered with.

  The region's grid is the 16 batches: point b takes the block [b, :, :, :] of the input array `x` and writes the block
  [b, :, 0, 0] of an array of shape [16, 256, 1, 1]. Its body sums the block along its last axis, then along the axis
  before it, and multiplies by the constant whose bits are 0x38800000:
  out[b, c, 0, 0] = (sum over h of the sum over w of x[b, c, h, w]) * k. The blocks tile the output array, so after the
  region the output array is that function everywhere.
-/
import proofs.«115878_j44547400794189_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.PoolValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The offset of a whole-block access is zero on every axis. -/
theorem hz4 : (![0, 0, 0, 0] : Fin 4 → Nat) = fun _ => 0 := funext fun a => by fin_cases a <;> rfl

/-- The pooled array as one function of the input array: for each (batch, channel) pair the sum over the rows of the
    sums over the columns, times the body's constant. -/
def pooled (x : S16x256x128x128.Idx → Elt Ideal .f32) : S16x256x1x1.Idx → Elt Ideal .f32 :=
  fun i => (∑ h : Fin 128, ∑ w : Fin 128, x (ix4 (n0 := 16) (n1 := 256) (n2 := 128) (n3 := 128) (i 0) (i 1) h w))
    * Ideal.ofBits .f32 0x38800000#32

/-- The body's stored value at the entry (0, c, 0, 0) of the output block: the block's entries of channel c summed over
    the last axis, then over the axis before it, times the constant. The cast [1,256] -> [1,256,1,1] keeps the
    row-major position, and each one-axis sum reads the source with the summed coordinate inserted. -/
theorem pay_apply (x : Vec Ideal S1x256x128x128 .f32) (y : S1x256x1x1.Idx) :
    k0_pay1 x y = (∑ h : Fin 128, ∑ w : Fin 128, x (ix4 (n0 := 1) (n1 := 256) (n2 := 128) (n3 := 128) 0 (y 1) h w))
      * Ideal.ofBits .f32 0x38800000#32 := by
  unfold k0_pay1
  refine (shapeCast_apply _ _ y (ix2 (n0 := 1) (n1 := 256) 0 (y 1)) ?_).trans ?_
  · rw [Shape.rowMajor_val_two, Shape.rowMajor_val_four]
    have h0 : (y 0).val < 1 := (y 0).isLt
    have h2 : (y 2).val < 1 := (y 2).isLt
    have h3 : (y 3).val < 1 := (y 3).isLt
    show (0 : Nat) * 256 + (y 1).val = (((y 0).val * 256 + (y 1).val) * 1 + (y 2).val) * 1 + (y 3).val
    omega
  show multiReduction .add [2] S1x256 (multiReduction .add [3] S1x256x128 x 0x00000000#32 reduces_S1x256x128x128_S1x256x128 (.inl rfl) rfl)
      0x00000000#32 reduces_S1x256x128_S1x256 (.inl rfl) rfl (ix2 (n0 := 1) (n1 := 256) 0 (y 1)) * Ideal.ofBits .f32 0x38800000#32 = _
  congr 1
  refine (Ideal.multiReduction_add_single _ 0x00000000#32 reduces_S1x256x128_S1x256 (.inl rfl) rfl (ix2 (n0 := 1) (n1 := 256) 0 (y 1))).trans ?_
  refine Finset.sum_congr rfl fun h _ => ?_
  have e : reduces_S1x256x128_S1x256.lift (ix2 (n0 := 1) (n1 := 256) 0 (y 1)) h = ix3 (n0 := 1) (n1 := 256) (n2 := 128) 0 (y 1) h :=
    funext fun a => Fin.ext (by
      match a with
      | ⟨0, _⟩ => rfl
      | ⟨1, _⟩ => rfl
      | ⟨2, _⟩ => rfl)
  rw [e]
  refine (Ideal.multiReduction_add_single x 0x00000000#32 reduces_S1x256x128x128_S1x256x128 (.inl rfl) rfl (ix3 (n0 := 1) (n1 := 256) (n2 := 128) 0 (y 1) h)).trans ?_
  refine Finset.sum_congr rfl fun w _ => ?_
  exact congrArg x (funext fun a => Fin.ext (by
    match a with
    | ⟨0, _⟩ => rfl
    | ⟨1, _⟩ => rfl
    | ⟨2, _⟩ => rfl
    | ⟨3, _⟩ => rfl))

/-- The printed index maps over the grid: both windows sit at the batch's block on axis 0 and at block 0 on the other
    axes; the batch block runs over 0..15. -/
theorem idx_facts : ∀ t : Fin cfg0.N,
    win0_0.index t (0 : Fin 4) = win0_1.index t (0 : Fin 4)
    ∧ win0_0.index t (1 : Fin 4) = 0 ∧ win0_0.index t (2 : Fin 4) = 0 ∧ win0_0.index t (3 : Fin 4) = 0
    ∧ win0_1.index t (1 : Fin 4) = 0 ∧ win0_1.index t (2 : Fin 4) = 0 ∧ win0_1.index t (3 : Fin 4) = 0
    ∧ win0_1.index t (0 : Fin 4) ≤ 15 :=
  (by decide +kernel : ∀ t : Fin grid0.N, _)

/-- Every batch's block of the output is some point's. -/
theorem idx_onto : ∀ (q0 : Fin 16), ∃ t : Fin cfg0.N, win0_1.index t = ![q0.val, 0, 0, 0] :=
  (by decide +kernel : ∀ (q0 : Fin 16), ∃ t : Fin grid0.N, win0_1.index t = ![q0.val, 0, 0, 0])

/-- What point `t` writes back is its block of `pooled` of the input array the region is entered with. -/
theorem flushed_eq (c : Dev nD) (t : Fin cfg0.N) :
    (dat0 V c).flushed 1 t = ((cfg0.win 1).blk t).view.read (Elt Ideal) (pooled (V c main_arg0)) := by
  show (cfg0.win 1).cut (grid0.coords t) ((dat0 V c).after 1 t) = _
  rw [after0_1]
  unfold out0_1
  rw [View.canon_unit_zero hz4]
  simp only [View.ld_unit_zero (S := S1x256x128x128) hz4]
  obtain ⟨e00, e01, e02, e03, e11, e12, e13, -⟩ := idx_facts t
  funext j
  show k0_pay1 (iblk0 V c 0 t) j = pooled (V c main_arg0) (((cfg0.win 1).blk t).view.emb j)
  refine (pay_apply _ j).trans ?_
  unfold pooled iblk0
  show FloatOps.mulf (F := Ideal) (φ := .f32)
        (∑ h : Fin 128, ∑ w : Fin 128, V c main_arg0 (((cfg0.win 0).blk t).view.emb (ix4 (n0 := 1) (n1 := 256) (n2 := 128) (n3 := 128) 0 (j 1) h w)))
        (Ideal.ofBits .f32 0x38800000#32)
      = FloatOps.mulf (F := Ideal) (φ := .f32)
        (∑ h : Fin 128, ∑ w : Fin 128, V c main_arg0 (ix4 (n0 := 16) (n1 := 256) (n2 := 128) (n3 := 128)
          ((((cfg0.win 1).blk t).view.emb j) 0) ((((cfg0.win 1).blk t).view.emb j) 1) h w))
        (Ideal.ofBits .f32 0x38800000#32)
  congr 1
  refine Finset.sum_congr rfl fun h _ => Finset.sum_congr rfl fun w _ => ?_
  congr 1
  funext a; apply Fin.ext
  match a with
  | ⟨0, _⟩ => show win0_0.index t (0 : Fin 4) * 1 + 1 * 0 = win0_1.index t (0 : Fin 4) * 1 + 1 * (j 0).val; have h0 : (j 0).val < 1 := (j 0).isLt; omega
  | ⟨1, _⟩ => show win0_0.index t (1 : Fin 4) * 256 + 1 * (j 1).val = win0_1.index t (1 : Fin 4) * 256 + 1 * (j 1).val; omega
  | ⟨2, _⟩ => show win0_0.index t (2 : Fin 4) * 128 + 1 * h.val = h.val; omega
  | ⟨3, _⟩ => show win0_0.index t (3 : Fin 4) * 128 + 1 * w.val = w.val; omega

/-- An index of the output array is in point `t`'s block iff each coordinate is in the block's range on its axis. -/
theorem mem_blk (t : Fin cfg0.N) (i : S16x256x1x1.Idx) :
    i ∈ ((cfg0.win 1).blk t).view.set ↔ ∀ a : Fin 4, win0_1.index t a * S1x256x1x1.size a ≤ (i a).val ∧ (i a).val < win0_1.index t a * S1x256x1x1.size a + S1x256x1x1.size a := by
  show i ∈ ((View.whole main_call0_v0).slice (win0_1.rect t)).set ↔ _
  rw [View.set_slice_whole, Rect.mem_set_unit]
  exact Iff.rfl

/-- The blocks tile the output array: the point whose block holds (b, c, 0, 0) is the one of batch b. -/
theorem cover (i : S16x256x1x1.Idx) :
    ∃ t : Fin cfg0.N, (cfg0.win 1).flush t = true ∧ i ∈ ((cfg0.win 1).blk t).view.set := by
  have hi0 : (i 0).val < 16 := (i 0).isLt
  have hi1 : (i 1).val < 256 := (i 1).isLt
  have hi2 : (i 2).val < 1 := (i 2).isLt
  have hi3 : (i 3).val < 1 := (i 3).isLt
  obtain ⟨t, ht⟩ := idx_onto ⟨(i 0).val, hi0⟩
  have q0 : win0_1.index t (0 : Fin 4) = (i 0).val := congrFun ht 0
  have q1 : win0_1.index t (1 : Fin 4) = 0 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 256 ≤ (i 1).val ∧ (i 1).val < win0_1.index t (1 : Fin 4) * 256 + 256; omega
  | ⟨2, _⟩ => show win0_1.index t (2 : Fin 4) * 1 ≤ (i 2).val ∧ (i 2).val < win0_1.index t (2 : Fin 4) * 1 + 1; omega
  | ⟨3, _⟩ => show win0_1.index t (3 : Fin 4) * 1 ≤ (i 3).val ∧ (i 3).val < win0_1.index t (3 : Fin 4) * 1 + 1; omega

/-- The output array after the region: `pooled` of the input array as the region found it. -/
theorem final (c : Dev nD) : (dat0 V c).arrAt 1 cfg0.N = pooled (V c main_arg0) :=
  (dat0 V c).arrAt_eq_of_cover 1 (pooled (V c main_arg0)) (fun t _ => flushed_eq V c t) cover

end Cert.KernelIdeal.PoolValue

end
-- ==== Proof.ScaleValue.lean ====
/-
  The scaling region, read as one function of the arrays it is entered with.

  The region's grid is 16 x 2: point (b, q) takes the block [b, 128q .. 128q+127, :, :] of the input array `x`, the
  block [b, 128q .. 128q+127, 0, 0] of the gate array `g` (shape [16, 256, 1, 1]), and writes the block of the result
  with the same corner. Its body spreads the gate block over the two trailing axes and multiplies:
  out[b, c, h, w] = x[b, c, h, w] * g[b, c, 0, 0]. The blocks tile the result array, so after the region the result
  array is that function everywhere.
-/
import proofs.«115878_j44547400794189_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.ScaleValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The offset of a whole-block access is zero on every axis. -/
theorem hz4 : (![0, 0, 0, 0] : Fin 4 → Nat) = fun _ => 0 := funext fun a => by fin_cases a <;> rfl

/-- The result as one function of the input array and the gate array: each entry of `x` times the gate of its
    (batch, channel) pair. -/
def scaled (x : S16x256x128x128.Idx → Elt Ideal .f32) (g : S16x256x1x1.Idx → Elt Ideal .f32) :
    S16x256x128x128.Idx → Elt Ideal .f32 :=
  fun i => x i * g (ix4 (n0 := 16) (n1 := 256) (n2 := 1) (n3 := 1) (i 0) (i 1) 0 0)

/-- The body's stored value at an entry (0, c, h, w) of the block: the input block there times the gate block at
    (0, c, 0, 0). The two casts of the gate block are to its own shape, and the spread reads the unit axes at 0. -/
theorem pay_apply (g : Vec Ideal S1x128x1x1 .f32) (x : Vec Ideal S1x128x128x128 .f32) (y : S1x128x128x128.Idx) :
    k1_pay1 g x y = x y * g (ix4 (n0 := 1) (n1 := 128) (n2 := 1) (n3 := 1) (y 0) (y 1) 0 0) := by
  unfold k1_pay1
  show x y * broadcastTo S1x128x128x128 (shapeCast S1x128x1x1 (shapeCast S1x128x1x1 g _) _) _ y = _
  rw [shapeCast_self, shapeCast_self]
  congr 1
  refine broadcastTo_apply g _ y _ (fun a => ?_)
  match a with
  | ⟨0, _⟩ => show (y 0).val = if (1 : Nat) = 1 then 0 else _; rw [if_pos rfl]; have h0 : (y 0).val < 1 := (y 0).isLt; omega
  | ⟨1, _⟩ => show (y 1).val = if (128 : Nat) = 1 then 0 else (y 1).val; rw [if_neg (by decide)]
  | ⟨2, _⟩ => show 0 = if (1 : Nat) = 1 then 0 else _; rw [if_pos rfl]
  | ⟨3, _⟩ => show 0 = if (1 : Nat) = 1 then 0 else _; rw [if_pos rfl]

/-- The printed index maps over the grid: the three windows move together on the batch and channel axes, and stay at
    block 0 on the two trailing axes; the result's batch block runs over 0..15 and its channel block over 0..1. -/
theorem idx_facts : ∀ t : Fin cfg1.N,
    win1_0.index t (0 : Fin 4) = win1_2.index t (0 : Fin 4) ∧ win1_0.index t (1 : Fin 4) = win1_2.index t (1 : Fin 4)
    ∧ win1_0.index t (2 : Fin 4) = 0 ∧ win1_0.index t (3 : Fin 4) = 0
    ∧ win1_1.index t (0 : Fin 4) = win1_2.index t (0 : Fin 4) ∧ win1_1.index t (1 : Fin 4) = win1_2.index t (1 : Fin 4)
    ∧ win1_1.index t (2 : Fin 4) = 0 ∧ win1_1.index t (3 : Fin 4) = 0
    ∧ win1_2.index t (2 : Fin 4) = 0 ∧ win1_2.index t (3 : Fin 4) = 0
    ∧ win1_2.index t (0 : Fin 4) ≤ 15 ∧ win1_2.index t (1 : Fin 4) ≤ 1 :=
  (by decide +kernel : ∀ t : Fin grid1.N, _)

/-- Every (batch, channel-half) block of the result is some point's. -/
theorem idx_onto : ∀ (q0 : Fin 16) (q1 : Fin 2), ∃ t : Fin cfg1.N, win1_2.index t = ![q0.val, q1.val, 0, 0] :=
  (by decide +kernel : ∀ (q0 : Fin 16) (q1 : Fin 2), ∃ t : Fin grid1.N, win1_2.index t = ![q0.val, q1.val, 0, 0])

/-- What point `t` writes back is its block of `scaled` of the arrays the region is entered with. -/
theorem flushed_eq (c : Dev nD) (t : Fin cfg1.N) :
    (dat1 V c).flushed 2 t = ((cfg1.win 2).blk t).view.read (Elt Ideal) (scaled (V c main_arg0) (V c main_call0_v25)) := by
  show (cfg1.win 2).cut (grid1.coords t) ((dat1 V c).after 2 t) = _
  rw [after1_2]
  unfold out1_2
  rw [View.canon_unit_zero hz4]
  simp only [View.ld_unit_zero (S := S1x128x128x128) hz4, View.ld_unit_zero (S := S1x128x1x1) hz4]
  obtain ⟨e00, e01, e02, e03, e10, e11, e12, e13, e22, e23, -, -⟩ := idx_facts t
  funext j
  show k1_pay1 (iblk1 V c 1 t) (iblk1 V c 0 t) j = scaled (V c main_arg0) (V c main_call0_v25) (((cfg1.win 2).blk t).view.emb j)
  refine (pay_apply _ _ j).trans ?_
  unfold scaled iblk1
  show FloatOps.mulf (F := Ideal) (φ := .f32) (V c main_arg0 (((cfg1.win 0).blk t).view.emb j))
        (V c main_call0_v25 (((cfg1.win 1).blk t).view.emb (ix4 (n0 := 1) (n1 := 128) (n2 := 1) (n3 := 1) (j 0) (j 1) 0 0)))
      = FloatOps.mulf (F := Ideal) (φ := .f32) (V c main_arg0 (((cfg1.win 2).blk t).view.emb j))
        (V c main_call0_v25 (ix4 (n0 := 16) (n1 := 256) (n2 := 1) (n3 := 1) ((((cfg1.win 2).blk t).view.emb j) 0) ((((cfg1.win 2).blk t).view.emb j) 1) 0 0))
  have h0 : ((cfg1.win 0).blk t).view.emb j = ((cfg1.win 2).blk t).view.emb j := by
    funext a; apply Fin.ext
    match a with
    | ⟨0, _⟩ => show win1_0.index t (0 : Fin 4) * 1 + 1 * (j 0).val = win1_2.index t (0 : Fin 4) * 1 + 1 * (j 0).val; omega
    | ⟨1, _⟩ => show win1_0.index t (1 : Fin 4) * 128 + 1 * (j 1).val = win1_2.index t (1 : Fin 4) * 128 + 1 * (j 1).val; omega
    | ⟨2, _⟩ => show win1_0.index t (2 : Fin 4) * 128 + 1 * (j 2).val = win1_2.index t (2 : Fin 4) * 128 + 1 * (j 2).val; omega
    | ⟨3, _⟩ => show win1_0.index t (3 : Fin 4) * 128 + 1 * (j 3).val = win1_2.index t (3 : Fin 4) * 128 + 1 * (j 3).val; omega
  have h1 : ((cfg1.win 1).blk t).view.emb (ix4 (n0 := 1) (n1 := 128) (n2 := 1) (n3 := 1) (j 0) (j 1) 0 0)
      = ix4 (n0 := 16) (n1 := 256) (n2 := 1) (n3 := 1) ((((cfg1.win 2).blk t).view.emb j) 0) ((((cfg1.win 2).blk t).view.emb j) 1) 0 0 := by
    funext a; apply Fin.ext
    match a with
    | ⟨0, _⟩ => show win1_1.index t (0 : Fin 4) * 1 + 1 * (j 0).val = win1_2.index t (0 : Fin 4) * 1 + 1 * (j 0).val; omega
    | ⟨1, _⟩ => show win1_1.index t (1 : Fin 4) * 128 + 1 * (j 1).val = win1_2.index t (1 : Fin 4) * 128 + 1 * (j 1).val; omega
    | ⟨2, _⟩ => show win1_1.index t (2 : Fin 4) * 1 + 1 * 0 = 0; omega
    | ⟨3, _⟩ => show win1_1.index t (3 : Fin 4) * 1 + 1 * 0 = 0; omega
  rw [h0, h1]

/-- An index of the result array is in point `t`'s block iff each coordinate is in the block's range on its axis. -/
theorem mem_blk (t : Fin cfg1.N) (i : S16x256x128x128.Idx) :
    i ∈ ((cfg1.win 2).blk t).view.set ↔ ∀ a : Fin 4, win1_2.index t a * S1x128x128x128.size a ≤ (i a).val ∧ (i a).val < win1_2.index t a * S1x128x128x128.size a + S1x128x128x128.size a := by
  show i ∈ ((View.whole main_v0).slice (win1_2.rect t)).set ↔ _
  rw [View.set_slice_whole, Rect.mem_set_unit]
  exact Iff.rfl

/-- The blocks tile the result array: the point whose block holds (b, c, h, w) is the one at (b, c / 128). -/
theorem cover (i : S16x256x128x128.Idx) :
    ∃ t : Fin cfg1.N, (cfg1.win 2).flush t = true ∧ i ∈ ((cfg1.win 2).blk t).view.set := by
  have hi0 : (i 0).val < 16 := (i 0).isLt
  have hi1 : (i 1).val < 256 := (i 1).isLt
  have hi2 : (i 2).val < 128 := (i 2).isLt
  have hi3 : (i 3).val < 128 := (i 3).isLt
  obtain ⟨t, ht⟩ := idx_onto ⟨(i 0).val, hi0⟩ ⟨(i 1).val / 128, by omega⟩
  have q0 : win1_2.index t (0 : Fin 4) = (i 0).val := congrFun ht 0
  have q1 : win1_2.index t (1 : Fin 4) = (i 1).val / 128 := congrFun ht 1
  have q2 : win1_2.index t (2 : Fin 4) = 0 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 128 ≤ (i 1).val ∧ (i 1).val < win1_2.index t (1 : Fin 4) * 128 + 128; omega
  | ⟨2, _⟩ => show win1_2.index t (2 : Fin 4) * 128 ≤ (i 2).val ∧ (i 2).val < win1_2.index t (2 : Fin 4) * 128 + 128; omega
  | ⟨3, _⟩ => show win1_2.index t (3 : Fin 4) * 128 ≤ (i 3).val ∧ (i 3).val < win1_2.index t (3 : Fin 4) * 128 + 128; omega

/-- The result array after the region: `scaled` of the input array and the gate array as the region found them. -/
theorem final (c : Dev nD) :
    (dat1 V c).arrAt 2 cfg1.N = scaled (V c main_arg0) (V c main_call0_v25) :=
  (dat1 V c).arrAt_eq_of_cover 2 (scaled (V c main_arg0) (V c main_call0_v25)) (fun t _ => flushed_eq V c t) cover

end Cert.KernelIdeal.ScaleValue

end
-- ==== Proof.Gate.lean ====
/-
  The gate, as one function of the pooled array and the four weight arrays.

  Between the two regions the kernel's host operations compute, from the pooled [16, 256] array q:
    u = q . W1^T + b1,   s = u * (1 / (1 + exp(-u))),   v = s . W2^T + b2,   gate = 1 / (1 + exp(-v)),
  and lay the gate out as a [16, 256, 1, 1] array. The reference computes the same chain of operations from its own
  pooled array. The chain is wrapped in this one definition so that both sides are "gate of a pooled array": it is
  compared as a whole and never opened.
-/
import proofs.«115878_j44547400794189_2_alg».proof.Proof.Gen.KernelIdeal
import Idealize.ShloMosaic.PureOps.Ideal

noncomputable section

namespace Cert.KernelIdeal.GateValue

open Cert.KernelIdeal Cert.KernelIdeal.Facts₀ Cert.KernelIdeal.Facts Idealize.ShloMosaic

/-- The two-layer gate of a pooled array `q`: a matrix product with the transposed first weight plus its bias, the
    product of that with its logistic, a matrix product with the transposed second weight plus its bias, the logistic of
    that, laid out with two trailing unit axes. -/
def gateOf (q : FVec Ideal S16x256 .f32) (w1 : FVec Ideal S256x256 .f32) (b1 : FVec Ideal S256 .f32)
    (w2 : FVec Ideal S256x256 .f32) (b2 : FVec Ideal S256 .f32) : FVec Ideal S16x256x1x1 .f32 :=
  let one : FVec Ideal S16x256 .f32 := broadcastInDim S16x256 ![] bcast_S_S16x256 (constant (F := Ideal) S_ .f32 0x3F800000#32)
  let u : FVec Ideal S16x256 .f32 :=
    addf (Host.dotGeneral (F := Ideal) dot_S16x256_S256x256_S16x256_1_0_0_1_n_n (some .fp32) q
        (transpose S256x256 [1, 0] w1 transposes_S256x256_S256x256_1_0))
      (broadcastInDim S16x256 ![0, 1] bcast_S1x256_S16x256_0_1 (broadcastInDim S1x256 ![1] bcast_S256_S1x256_1 b1))
  let s : FVec Ideal S16x256 .f32 := mulf u (Host.divf (F := Ideal) one (addf one (Host.exp (F := Ideal) (Host.negf (F := Ideal) u))))
  let v : FVec Ideal S16x256 .f32 :=
    addf (Host.dotGeneral (F := Ideal) dot_S16x256_S256x256_S16x256_1_0_0_1_n_n (some .fp32) s
        (transpose S256x256 [1, 0] w2 transposes_S256x256_S256x256_1_0))
      (broadcastInDim S16x256 ![0, 1] bcast_S1x256_S16x256_0_1 (broadcastInDim S1x256 ![1] bcast_S256_S1x256_1 b2))
  broadcastInDim S16x256x1x1 ![0, 1] bcast_S16x256_S16x256x1x1_0_1
    (Host.divf (F := Ideal) one (addf one (Host.exp (F := Ideal) (Host.negf (F := Ideal) v))))

end Cert.KernelIdeal.GateValue

end
-- ==== Proof.KernelValue.lean ====
/-
  The kernel's result, read back from the last boundary to the launch memory.

  The last boundary's contents at the result buffer are what the scaling region's write-backs leave: the input array
  times the gate array, both as that region found them. The region finds the input array as launched (no host operation
  and no earlier write-back touches it) and the gate array as the host stretch computed it from the pooling region's
  output and the four weight arrays, which are also as launched. The pooling region's output is the pooled array of the
  input array as launched.
-/
import proofs.«115878_j44547400794189_2_alg».proof.Proof.KernelRun
import proofs.«115878_j44547400794189_2_alg».proof.Proof.PoolValue
import proofs.«115878_j44547400794189_2_alg».proof.Proof.ScaleValue
import proofs.«115878_j44547400794189_2_alg».proof.Proof.Gate
import Idealize.ShloMosaic.Lib.StableHlo.Run

set_option maxRecDepth 16384

noncomputable section

namespace Cert.KernelIdeal.KernelValue

open Cert.KernelIdeal Cert.KernelIdeal.Gen Cert.KernelIdeal.Facts₀ Cert.KernelIdeal.Facts
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The scaling region finds the input array as launched: its write-backs leave an input window's array alone, so the
    last boundary's contents there are the region's entry contents, and those are the launch memory's. -/
theorem entry_arg0 (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- The pooling region's output array after it: the pooled array of the input as launched. -/
theorem pooled_out (c : Dev nD) :
    W1 m ρ c (Proc.devRef .tc main_call0_v0) = PoolValue.pooled (m ((c : Thread nD τ).loc main_arg0)) :=
  (W1_arr m ρ c 1).trans (PoolValue.final (V0 m ρ) c)

/-- The four weight arrays are as launched when the host stretch reads them: the pooling region has no window on them. -/
theorem kept1 (c : Dev nD) : W1 m ρ c (Proc.devRef .tc main_arg1) = m ((c : Thread nD τ).loc main_arg1) := W1_of_ne m ρ c main_arg1 (by decide)
theorem kept2 (c : Dev nD) : W1 m ρ c (Proc.devRef .tc main_arg2) = m ((c : Thread nD τ).loc main_arg2) := W1_of_ne m ρ c main_arg2 (by decide)
theorem kept3 (c : Dev nD) : W1 m ρ c (Proc.devRef .tc main_arg3) = m ((c : Thread nD τ).loc main_arg3) := W1_of_ne m ρ c main_arg3 (by decide)
theorem kept4 (c : Dev nD) : W1 m ρ c (Proc.devRef .tc main_arg4) = m ((c : Thread nD τ).loc main_arg4) := W1_of_ne m ρ c main_arg4 (by decide)

/-- The gate array the scaling region finds: the host stretch's operations applied to the pooling region's output
    (viewed as [16, 256]) and the weight arrays, as the stretch found them. -/
theorem entry_gate (c : Dev nD) :
    V2 m ρ c main_call0_v25
      = GateValue.gateOf (shapeCast S16x256 (W1 m ρ c (Proc.devRef .tc main_call0_v0)) Cert.KernelIdeal.Facts₀.shapeCasts_S16x256x1x1_S16x256)
          (W1 m ρ c (Proc.devRef .tc main_arg1)) (W1 m ρ c (Proc.devRef .tc main_arg2))
          (W1 m ρ c (Proc.devRef .tc main_arg3)) (W1 m ρ c (Proc.devRef .tc main_arg4)) := by
  show StableHlo.after hostOps1 (W1 m ρ c) (Proc.devRef .tc main_call0_v25) = _
  after_results
  rfl

/-- The result buffer at the last boundary: each entry of the input array as launched, times the gate of its
    (batch, channel) pair computed from the pooled input and the weights as launched. -/
theorem result (c : Dev nD) :
    W3 m ρ c (Proc.devRef .tc main_v0)
      = ScaleValue.scaled (m ((c : Thread nD τ).loc main_arg0))
          (GateValue.gateOf (shapeCast S16x256 (PoolValue.pooled (m ((c : Thread nD τ).loc main_arg0))) Cert.KernelIdeal.Facts₀.shapeCasts_S16x256x1x1_S16x256)
            (m ((c : Thread nD τ).loc main_arg1)) (m ((c : Thread nD τ).loc main_arg2))
            (m ((c : Thread nD τ).loc main_arg3)) (m ((c : Thread nD τ).loc main_arg4))) := by
  refine ((W3_arr m ρ c 2).trans (ScaleValue.final (V2 m ρ) c)).trans ?_
  rw [entry_arg0, entry_gate, pooled_out, kept1, kept2, kept3, kept4]

end Cert.KernelIdeal.KernelValue

end
-- ==== Proof.Consts.lean ====
/-
  The float constants the two programs spell, as the extended reals their bit patterns denote: zero, the reference's
  divisor 16384 = 2^14, and the kernel's factor 2^(-14) = 1/16384. Both nonzero constants are powers of two, so each is
  denoted exactly, and dividing by the one is multiplying by the other.
-/
import Idealize.ShloMosaic.PureOps.Ideal

noncomputable section

namespace Cert.Consts

open Idealize.ShloMosaic

/-- The pattern of +0.0 denotes 0. -/
theorem ofBits_zero : Ideal.ofBits .f32 0x00000000#32 = 0 := by
  simp [Ideal.ofBits, Ideal.ieee]

/-- The pattern 0x46800000 (sign 0, exponent 141, mantissa 0) denotes 2^14 = 16384. -/
theorem ofBits_16384 : Ideal.ofBits .f32 0x46800000#32 = ((16384 : ℝ) : EReal) := by
  simp [Ideal.ofBits, Ideal.ieee, -EReal.coe_mul]; norm_num

/-- The pattern 0x38800000 (sign 0, exponent 113, mantissa 0) denotes 2^(-14) = 1/16384. -/
theorem ofBits_inv16384 : Ideal.ofBits .f32 0x38800000#32 = ((1 / 16384 : ℝ) : EReal) := by
  simp [Ideal.ofBits, Ideal.ieee, -EReal.coe_mul]; norm_num

end Cert.Consts

end
-- ==== Proof.Bridge.lean ====
/-
  The two programs compute one function.

  Kernel: out[b,c,h,w] = x[b,c,h,w] * gate(q_K)[b,c,0,0], where q_K[b,c] = (sum_h sum_w x[b,c,h,w]) * 2^(-14).
  Reference: out[b,c,h,w] = gate(q_R)[b,c,0,0] * x[b,c,h,w], where q_R[b,c] = (0 + sum over all (h,w) of x[b,c,h,w]) / 2^14.
  The gate is the same chain of host operations on both sides (a matrix product's precision annotation has no meaning
  on exact numbers). So three facts join them, all valid on every extended real (no finiteness is used):
    * a sum over the pairs (h, w) is the iterated sum over h of the sums over w (addition is commutative and associative);
    * dividing by the real 2^14 is multiplying by the real 2^(-14);
    * multiplication is commutative.
-/
import proofs.«115878_j44547400794189_2_alg».proof.Proof.Gen.ReferenceIdeal.Read
import proofs.«115878_j44547400794189_2_alg».proof.Proof.PoolValue
import proofs.«115878_j44547400794189_2_alg».proof.Proof.ScaleValue
import proofs.«115878_j44547400794189_2_alg».proof.Proof.Gate
import proofs.«115878_j44547400794189_2_alg».proof.Proof.Consts
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.ValueIdx
open Cert.ReferenceIdeal Cert.ReferenceIdeal.Facts₀ Cert.ReferenceIdeal.Facts

/-- The entries of a [16,256,128,128] array that the reduction over its two trailing axes sends to (b, c) are the
    entries (b, c, h, w): summed, they are the sum over h of the sums over w. -/
theorem sum_filter_drop (x : S16x256x128x128.Idx → EReal) (b : Fin 16) (c : Fin 256) :
    ∑ i ∈ Finset.univ.filter (fun i => reducesTo_S16x256x128x128_S16x256_d2_3.drop i = ix2 (n0 := 16) (n1 := 256) b c), x i
      = ∑ h : Fin 128, ∑ w : Fin 128, x (ix4 (n0 := 16) (n1 := 256) (n2 := 128) (n3 := 128) b c h w) := by
  rw [← Finset.sum_product' (s := (Finset.univ : Finset (Fin 128))) (t := (Finset.univ : Finset (Fin 128)))
    (f := fun h w => x (ix4 (n0 := 16) (n1 := 256) (n2 := 128) (n3 := 128) b c h w))]
  refine Finset.sum_nbij' (fun i => ((i 2 : Fin 128), (i 3 : Fin 128)))
    (fun p => ix4 (n0 := 16) (n1 := 256) (n2 := 128) (n3 := 128) b c p.1 p.2) ?_ ?_ ?_ ?_ ?_
  · intro i _; exact Finset.mem_product.2 ⟨Finset.mem_univ _, Finset.mem_univ _⟩
  · intro p _
    refine Finset.mem_filter.2 ⟨Finset.mem_univ _, ?_⟩
    funext a; apply Fin.ext
    match a with
    | ⟨0, _⟩ => rfl
    | ⟨1, _⟩ => rfl
  · intro i hi
    have hj := (Finset.mem_filter.1 hi).2
    have d0 : (reducesTo_S16x256x128x128_S16x256_d2_3.drop i (0 : Fin 2)).val = (i (0 : Fin 4)).val := rfl
    have d1 : (reducesTo_S16x256x128x128_S16x256_d2_3.drop i (1 : Fin 2)).val = (i (1 : Fin 4)).val := rfl
    have e0 : (i (0 : Fin 4)).val = b.val := d0.symm.trans (congrArg (fun j : S16x256.Idx => (j (0 : Fin 2)).val) hj)
    have e1 : (i (1 : Fin 4)).val = c.val := d1.symm.trans (congrArg (fun j : S16x256.Idx => (j (1 : Fin 2)).val) hj)
    funext a; apply Fin.ext
    match a with
    | ⟨0, _⟩ => exact e0.symm
    | ⟨1, _⟩ => exact e1.symm
    | ⟨2, _⟩ => rfl
    | ⟨3, _⟩ => rfl
  · intro p _; rfl
  · intro i hi
    have hj := (Finset.mem_filter.1 hi).2
    have d0 : (reducesTo_S16x256x128x128_S16x256_d2_3.drop i (0 : Fin 2)).val = (i (0 : Fin 4)).val := rfl
    have d1 : (reducesTo_S16x256x128x128_S16x256_d2_3.drop i (1 : Fin 2)).val = (i (1 : Fin 4)).val := rfl
    have e0 : (i (0 : Fin 4)).val = b.val := d0.symm.trans (congrArg (fun j : S16x256.Idx => (j (0 : Fin 2)).val) hj)
    have e1 : (i (1 : Fin 4)).val = c.val := d1.symm.trans (congrArg (fun j : S16x256.Idx => (j (1 : Fin 2)).val) hj)
    refine congrArg x (funext fun a => Fin.ext ?_)
    match a with
    | ⟨0, _⟩ => exact e0
    | ⟨1, _⟩ => exact e1
    | ⟨2, _⟩ => rfl
    | ⟨3, _⟩ => rfl

/-- The kernel's pooled array, viewed as [16, 256], is the reference's mean: at (b, c) the one is the iterated sum
    times 2^(-14), the other zero plus the joint sum, divided by 2^14. -/
theorem pooled_eq (x : FVec Ideal S16x256x128x128 .f32) :
    shapeCast Cert.KernelIdeal.S16x256 (Cert.KernelIdeal.PoolValue.pooled x) Cert.KernelIdeal.Facts₀.shapeCasts_S16x256x1x1_S16x256
      = Read.val_main_v2 (F := Ideal) x := by
  funext i
  obtain ⟨b, c, rfl⟩ : ∃ (b : Fin 16) (c : Fin 256), i = ix2 b c := ⟨i 0, i 1, eq_ix2 i⟩
  refine (shapeCast_apply _ _ (ix2 (n0 := 16) (n1 := 256) b c) (ix4 (n0 := 16) (n1 := 256) (n2 := 1) (n3 := 1) b c 0 0) ?_).trans ?_
  · rw [Shape.rowMajor_val_four, Shape.rowMajor_val_two]
    show ((b.val * 256 + c.val) * 1 + 0) * 1 + 0 = b.val * 256 + c.val
    omega
  rw [Read.val_main_v2_apply, Read.val_main_v1_apply, Read.val_main_cst_0_apply]
  unfold Cert.KernelIdeal.PoolValue.pooled Read.val_main_v0 Read.val_main_cst
  show (∑ h : Fin 128, ∑ w : Fin 128, x (ix4 (n0 := 16) (n1 := 256) (n2 := 128) (n3 := 128) b c h w)) * Ideal.ofBits .f32 0x38800000#32
      = Ideal.div (Ideal.ofBits .f32 0x00000000#32
          + ∑ i ∈ Finset.univ.filter (fun i => reducesTo_S16x256x128x128_S16x256_d2_3.drop i = ix2 (n0 := 16) (n1 := 256) b c), x i)
        (Ideal.ofBits .f32 0x46800000#32)
  rw [Cert.Consts.ofBits_zero, zero_add, sum_filter_drop, Cert.Consts.ofBits_16384, Cert.Consts.ofBits_inv16384,
    Ideal.div_coe (by norm_num : (16384 : ℝ) ≠ 0)]

/-- The reference's gate stage is the kernel's gate function of the reference's pooled array: the same operations in
    the same order, read at exact numbers. -/
theorem gate_ref (x0 : FVec Ideal S16x256x128x128 .f32) (x1 : FVec Ideal S256x256 .f32) (x2 : FVec Ideal S256 .f32)
    (x3 : FVec Ideal S256x256 .f32) (x4 : FVec Ideal S256 .f32) :
    Read.val_main_v26 (F := Ideal) x0 x1 x2 x3 x4
      = Cert.KernelIdeal.GateValue.gateOf (Read.val_main_v2 (F := Ideal) x0) x1 x2 x3 x4 := rfl

/-- The two results are one function of the five arguments: entry by entry the kernel's x * gate is the reference's
    gate * x, the gates agreeing because the pooled arrays do. -/
theorem result_eq (x0 : FVec Ideal S16x256x128x128 .f32) (x1 : FVec Ideal S256x256 .f32) (x2 : FVec Ideal S256 .f32)
    (x3 : FVec Ideal S256x256 .f32) (x4 : FVec Ideal S256 .f32) :
    Cert.KernelIdeal.ScaleValue.scaled x0
        (Cert.KernelIdeal.GateValue.gateOf
          (shapeCast Cert.KernelIdeal.S16x256 (Cert.KernelIdeal.PoolValue.pooled x0) Cert.KernelIdeal.Facts₀.shapeCasts_S16x256x1x1_S16x256)
          x1 x2 x3 x4)
      = Read.val_main_v28 (F := Ideal) x0 x1 x2 x3 x4 := by
  rw [pooled_eq, ← gate_ref]
  funext i
  rw [Read.val_main_v28_apply, Read.val_main_v27_apply]
  unfold Cert.KernelIdeal.ScaleValue.scaled
  have e : Read.idx_main_v27 i = ix4 (n0 := 16) (n1 := 256) (n2 := 1) (n3 := 1) (i 0) (i 1) 0 0 :=
    funext fun a => Fin.ext (by
      match a with
      | ⟨0, _⟩ => rfl
      | ⟨1, _⟩ => rfl
      | ⟨2, _⟩ => rfl
      | ⟨3, _⟩ => rfl)
  rw [e]
  exact mul_comm _ _

end Cert.Bridge

end
-- ==== Proof.lean ====
/-
  A squeeze-and-excite block: global average pooling over the two trailing axes of x : f32[16, 256, 128, 128], a
  two-layer gate on the pooled [16, 256] array (u = q . W1^T + b1, s = u * logistic(u), gate = logistic(s . W2^T + b2)),
  and x scaled entry by entry by the gate of its (batch, channel) pair.

  The kernel does the pooling in one region (per batch: sum the block over its last axis, then over the axis before it,
  times 2^(-14)), the gate in host operations, and the scaling in a second region (per batch and half of the channels:
  the input block times the gate block spread over the two trailing axes). The reference takes jnp.mean (one sum over
  both trailing axes from zero, divided by 2^14), the same gate operations, and gate * x.

  Read at exact numbers (extended reals) both results are
      out[b, c, h, w] = x[b, c, h, w] * gate((sum_{h', w'} x[b, c, h', w']) / 2^14)[b, c].
  What joins the two sides holds on every extended real, so the precondition is never opened: a sum over pairs is an
  iterated sum; dividing by the real 2^14 is multiplying by the real 2^(-14), both constants being exact powers of two;
  a matrix product's precision annotation means nothing at exact numbers; multiplication commutes.

  The three frames are the generated ones (the reference's is its generated run with the result dropped). The idealizing
  pass rewrote nothing, so the kernel's idealization is its own text and that conjunct is trivial. For the value claim:
  Proof/KernelRun.lean keeps the result buffer in the post of the kernel's run; Proof/PoolValue.lean and
  Proof/ScaleValue.lean read each region's output array as one function of the arrays the region is entered with;
  Proof/Gate.lean wraps the gate's host operations in one definition; Proof/KernelValue.lean walks from the result
  buffer back to the launch memory; Proof/Bridge.lean proves the kernel's function equal to the reference's stage.
-/
import proofs.«115878_j44547400794189_2_alg».proof.Defs
import proofs.«115878_j44547400794189_2_alg».proof.Proof.Gen.Kernel
import proofs.«115878_j44547400794189_2_alg».proof.Proof.Gen.Kernel.Skeleton
import proofs.«115878_j44547400794189_2_alg».proof.Proof.Gen.Kernel.Launch
import proofs.«115878_j44547400794189_2_alg».proof.Proof.Gen.Kernel.Points
import proofs.«115878_j44547400794189_2_alg».proof.Proof.Gen.Kernel.Frame
import proofs.«115878_j44547400794189_2_alg».proof.Proof.Gen.KernelIdeal
import proofs.«115878_j44547400794189_2_alg».proof.Proof.Gen.KernelIdeal.Skeleton
import proofs.«115878_j44547400794189_2_alg».proof.Proof.Gen.KernelIdeal.Launch
import proofs.«115878_j44547400794189_2_alg».proof.Proof.Gen.KernelIdeal.Points
import proofs.«115878_j44547400794189_2_alg».proof.Proof.Gen.KernelIdeal.Frame
import proofs.«115878_j44547400794189_2_alg».proof.Proof.Gen.ReferenceIdeal
import proofs.«115878_j44547400794189_2_alg».proof.Proof.Gen.Pre_finite_inputs
import proofs.«115878_j44547400794189_2_alg».proof.Proof.Gen.ReferenceIdeal.Run
import proofs.«115878_j44547400794189_2_alg».proof.Proof.Gen.ReferenceIdeal.Read
import proofs.«115878_j44547400794189_2_alg».proof.Proof.KernelRun
import proofs.«115878_j44547400794189_2_alg».proof.Proof.KernelValue
import proofs.«115878_j44547400794189_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealizing pass rewrote no operation. -/
theorem preserves : Cert.preserves_Kernel_KernelIdeal := trivial

/-- From memories that agree on the five arguments, the kernel's result buffer ends at x times the gate of the pooled x
    (its run, read back to the launch memory), and the reference's at its last stage of the same arguments: one function. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KernelValue.result m ρ c), (h c).2⟩)
      (Cert.KernelIdeal.RunValue.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v28_eq]
  exact (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
